-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x160000 : Shape := ⟨2, ![2, 160000]⟩
abbrev S1 : Shape := ⟨1, ![1]⟩
abbrev S512x512 : Shape := ⟨2, ![512, 512]⟩
abbrev S512 : Shape := ⟨1, ![512]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S1 : S_.BroadcastsInDim S1 (![] : Fin 0 → Fin S1.rank)
  reducesTo_S1_S_d0 : S1.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg5 : FVec F S512 .f32) (main_arg6 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S50000x512 .f32) (main_arg1 : IVec S2x160000 32) (main_arg2 : FVec F S1 .f32) (main_arg3 : FVec F S512x512 .f32) (main_arg4 : FVec F S512 .f32) (main_arg5 : FVec F S512 .f32) (main_arg6 : FVec F S512 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_v13 main_v16
-- ==== Kernel.lean ====
abbrev S50000x512 : Shape := ⟨2, ![50000, 512]⟩
abbrev S2x160000 : Shape := ⟨2, ![2, 160000]⟩
abbrev S1 : Shape := ⟨1, ![1]⟩
abbrev S512x512 : Shape := ⟨2, ![512, 512]⟩
abbrev S512 : Shape := ⟨1, ![512]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x512 : Shape := ⟨2, ![160000, 512]⟩
abbrev S1x512 : Shape := ⟨2, ![1, 512]⟩
abbrev S1000x512 : Shape := ⟨2, ![1000, 512]⟩

abbrev nBuf : Space → Nat
  | .hbm => 52
  | .vmem => 16
  | .smem => 0
  | _ => 0

abbrev bufTy : (tb : Table) → Fin (tcTables nBuf tb) → BufTy
  | .hbm, ⟨0, _⟩ => ⟨S50000x512, .f32⟩
  | .hbm, ⟨1, _⟩ => ⟨S2x160000, .i32⟩
  | .hbm, ⟨2, _⟩ => ⟨S1, .f32⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S1x160000, .i32⟩
  | .hbm, ⟨8, _⟩ => ⟨S160000, .i32⟩
  | .hbm, ⟨9, _⟩ => ⟨S1x160000, .i32⟩
  | .hbm, ⟨10, _⟩ => ⟨S160000, .i32⟩
  | .hbm, ⟨11, _⟩ => ⟨S_, .i32⟩
  | .hbm, ⟨12, _⟩ => ⟨S160000, .i32⟩
  | .hbm, ⟨13, _⟩ => ⟨S160000, .i1⟩
  | .hbm, ⟨14, _⟩ => ⟨S_, .i32⟩
  | .hbm, ⟨15, _⟩ => ⟨S160000, .i32⟩
  | .hbm, ⟨16, _⟩ => ⟨S160000, .i32⟩
  | .hbm, ⟨17, _⟩ => ⟨S160000, .i32⟩
  | .hbm, ⟨18, _⟩ => ⟨S160000x1, .i32⟩
  | .hbm, ⟨19, _⟩ => ⟨S160000x512, .f32⟩
  | .hbm, ⟨20, _⟩ => ⟨S_, .f32⟩
  | .hbm, ⟨21, _⟩ => ⟨S50000x512, .f32⟩
  | .hbm, ⟨22, _⟩ => ⟨S160000x1, .i32⟩
  | .hbm, ⟨23, _⟩ => ⟨S50000x512, .f32⟩
  | .hbm, ⟨24, _⟩ => ⟨S512x512, .f32⟩
  | .hbm, ⟨25, _⟩ => ⟨S1x512, .f32⟩
  | .hbm, ⟨26, _⟩ => ⟨S1x512, .f32⟩
  | .hbm, ⟨27, _⟩ => ⟨S1x512, .f32⟩
  | .hbm, ⟨28, _⟩ => ⟨S50000x512, .f32⟩
  | .hbm, ⟨29, _⟩ => ⟨S_, .f32⟩
  | .hbm, ⟨30, _⟩ => ⟨S512, .f32⟩
  | .hbm, ⟨31, _⟩ => ⟨S1x512, .f32⟩
  | .hbm, ⟨32, _⟩ => ⟨S_, .f32⟩
  | .hbm, ⟨33, _⟩ => ⟨S1x512, .f32⟩
  | .hbm, ⟨34, _⟩ => ⟨S1x512, .f32⟩
  | .hbm, ⟨35, _⟩ => ⟨S50000x512, .f32⟩
  | .hbm, ⟨36, _⟩ => ⟨S50000x512, .f32⟩
  | .hbm, ⟨37, _⟩ => ⟨S50000x512, .f32⟩
  | .hbm, ⟨38, _⟩ => ⟨S_, .f32⟩
  | .hbm, ⟨39, _⟩ => ⟨S512, .f32⟩
  | .hbm, ⟨40, _⟩ => ⟨S1x512, .f32⟩
  | .hbm, ⟨41, _⟩ => ⟨S_, .f32⟩
  | .hbm, ⟨42, _⟩ => ⟨S1x512, .f32⟩
  | .hbm, ⟨43, _⟩ => ⟨S1x512, .f32⟩
  | .hbm, ⟨44, _⟩ => ⟨S_, .f32⟩
  | .hbm, ⟨45, _⟩ => ⟨S1x512, .f32⟩
  | .hbm, ⟨46, _⟩ => ⟨S1x512, .f32⟩
  | .hbm, ⟨47, _⟩ => ⟨S_, .f32⟩
  | .hbm, ⟨48, _⟩ => ⟨S1x512, .f32⟩
  | .hbm, ⟨49, _⟩ => ⟨S1x512, .f32⟩
  | .hbm, ⟨50, _⟩ => ⟨S1x512, .f32⟩
  | .hbm, ⟨51, _⟩ => ⟨S50000x512, .f32⟩
  | .local _ .vmem, ⟨0, _⟩ => ⟨S1000x512, .f32⟩
  | .local _ .vmem, ⟨1, _⟩ => ⟨S1000x512, .f32⟩
  | .local _ .vmem, ⟨2, _⟩ => ⟨S1000x512, .f32⟩
  | .local _ .vmem, ⟨3, _⟩ => ⟨S1000x512, .f32⟩
  | .local _ .vmem, ⟨4, _⟩ => ⟨S512x512, .f32⟩
  | .local _ .vmem, ⟨5, _⟩ => ⟨S1x512, .f32⟩
  | .local _ .vmem, ⟨6, _⟩ => ⟨S1000x512, .f32⟩
  | .local _ .vmem, ⟨7, _⟩ => ⟨S1000x512, .f32⟩
  | .local _ .vmem, ⟨8, _⟩ => ⟨S1000x512, .f32⟩
  | .local _ .vmem, ⟨9, _⟩ => ⟨S1000x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1000x512, .f32⟩
  | .local _ .vmem, ⟨15, _⟩ => ⟨S1000x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S50000x512 : S_.BroadcastsInDim S50000x512 (![] : Fin 0 → Fin S50000x512.rank)
  transposes_S512x512_S512x512_1_0 : S512x512.Transposes [1, 0] S512x512
  shapeCasts_S512_S1x512 : S512.ShapeCasts S1x512
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  reducesTo_S50000x512_S512_d0 : S50000x512.ReducesTo [0] S512
  h_S_ : 0 < S_.numel
  bcast_S512_S1x512_1 : S512.BroadcastsInDim S1x512 (![1] : Fin 1 → Fin S1x512.rank)
  bcast_S_S1x512 : S_.BroadcastsInDim S1x512 (![] : Fin 0 → Fin S1x512.rank)
  bcast_S1x512_S50000x512_0_1 : S1x512.BroadcastsInDim S50000x512 (![0, 1] : Fin 2 → Fin S50000x512.rank)
  gather_S50000x512_S160000x1_S160000x512_1_0_n_n_0_1_1512_wf : GatherDims.WF S50000x512 S160000x1 S160000x512 [1] [0] [] [0] [] 1 ![1, 512]
  scatter_S50000x512_S160000x1_S160000x512_1_0_0_1_wf : ScatterDims.WF S50000x512 S160000x1 S160000x512 [1] [0] [0] 1
  dot_S1000x512_S512x512_S1000x512_1_0_0_1_n_n_wf : DotDims.WF S1000x512 S512x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S50000x512.size a
  hwx0_0 : ∀ i : grid0.Coords, EltTy.bits .f32 = 32 ∨ (Rect.block (s := S50000x512) S1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S50000x512.size a
  hwx0_1 : ∀ i : grid0.Coords, EltTy.bits .f32 = 32 ∨ (Rect.block (s := S50000x512) S1000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x512.size a ≤ S50000x512.size a
  hwx0_4 : ∀ i : grid0.Coords, EltTy.bits .f32 = 32 ∨ (Rect.block (s := S50000x512) S1000x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S50000x512.size a
  hwx1_0 : ∀ i : grid1.Coords, EltTy.bits .f32 = 32 ∨ (Rect.block (s := S50000x512) S1000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x512.size a ≤ S50000x512.size a
  hwx1_5 : ∀ i : grid1.Coords, EltTy.bits .f32 = 32 ∨ (Rect.block (s := S50000x512) S1000x512.size (cc1_transform_5 i) (hinb1_5 i)).WholeWords (EltTy.packing .f32)

variable [Facts₀]

def gather_S50000x512_S160000x1_S160000x512_1_0_n_n_0_1_1512 : GatherDims S50000x512 S160000x1 S160000x512 where
  offsetDims := [1]
  collapsedSliceDims := [0]
  operandBatchingDims := []
  startIndicesBatchingDims := []
  startIndexMap := [0]
  indexVectorDim := 1
  sliceSizes := ![1, 512]
  wf := gather_S50000x512_S160000x1_S160000x512_1_0_n_n_0_1_1512_wf
def scatter_S50000x512_S160000x1_S160000x512_1_0_0_1 : ScatterDims S50000x512 S160000x1 S160000x512 where
  updateWindowDims := [1]
  insertedWindowDims := [0]
  scatterDimsToOperandDims := [0]
  indexVectorDim := 1
  wf := scatter_S50000x512_S160000x1_S160000x512_1_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1000x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v18) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1000x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x160000 : Shape := ⟨2, ![2, 160000]⟩
abbrev S1 : Shape := ⟨1, ![1]⟩
abbrev S512x512 : Shape := ⟨2, ![512, 512]⟩
abbrev S512 : Shape := ⟨1, ![512]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x512 : Shape := ⟨2, ![160000, 512]⟩
abbrev S1x512 : Shape := ⟨2, ![1, 512]⟩

abbrev nBuf : Space → Nat
  | .hbm => 60
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x160000, .i32⟩
  | .hbm, ⟨2, _⟩ => ⟨S1, .f32⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S1x160000, .i32⟩
  | .hbm, ⟨8, _⟩ => ⟨S160000, .i32⟩
  | .hbm, ⟨9, _⟩ => ⟨S1x160000, .i32⟩
  | .hbm, ⟨10, _⟩ => ⟨S160000, .i32⟩
  | .hbm, ⟨11, _⟩ => ⟨S_, .i32⟩
  | .hbm, ⟨12, _⟩ => ⟨S160000, .i32⟩
  | .hbm, ⟨13, _⟩ => ⟨S160000, .i1⟩
  | .hbm, ⟨14, _⟩ => ⟨S_, .i32⟩
  | .hbm, ⟨15, _⟩ => ⟨S160000, .i32⟩
  | .hbm, ⟨16, _⟩ => ⟨S160000, .i32⟩
  | .hbm, ⟨17, _⟩ => ⟨S160000, .i32⟩
  | .hbm, ⟨18, _⟩ => ⟨S160000x1, .i32⟩
  | .hbm, ⟨19, _⟩ => ⟨S160000x512, .f32⟩
  | .hbm, ⟨20, _⟩ => ⟨S_, .f32⟩
  | .hbm, ⟨21, _⟩ => ⟨S50000x512, .f32⟩
  | .hbm, ⟨22, _⟩ => ⟨S160000x1, .i32⟩
  | .hbm, ⟨23, _⟩ => ⟨S50000x512, .f32⟩
  | .hbm, ⟨24, _⟩ => ⟨S50000x512, .f32⟩
  | .hbm, ⟨25, _⟩ => ⟨S512x512, .f32⟩
  | .hbm, ⟨26, _⟩ => ⟨S50000x512, .f32⟩
  | .hbm, ⟨27, _⟩ => ⟨S1x512, .f32⟩
  | .hbm, ⟨28, _⟩ => ⟨S50000x512, .f32⟩
  | .hbm, ⟨29, _⟩ => ⟨S50000x512, .f32⟩
  | .hbm, ⟨30, _⟩ => ⟨S_, .f32⟩
  | .hbm, ⟨31, _⟩ => ⟨S512, .f32⟩
  | .hbm, ⟨32, _⟩ => ⟨S_, .f32⟩
  | .hbm, ⟨33, _⟩ => ⟨S512, .f32⟩
  | .hbm, ⟨34, _⟩ => ⟨S512, .f32⟩
  | .hbm, ⟨35, _⟩ => ⟨S1x512, .f32⟩
  | .hbm, ⟨36, _⟩ => ⟨S50000x512, .f32⟩
  | .hbm, ⟨37, _⟩ => ⟨S50000x512, .f32⟩
  | .hbm, ⟨38, _⟩ => ⟨S50000x512, .f32⟩
  | .hbm, ⟨39, _⟩ => ⟨S_, .f32⟩
  | .hbm, ⟨40, _⟩ => ⟨S512, .f32⟩
  | .hbm, ⟨41, _⟩ => ⟨S_, .f32⟩
  | .hbm, ⟨42, _⟩ => ⟨S512, .f32⟩
  | .hbm, ⟨43, _⟩ => ⟨S512, .f32⟩
  | .hbm, ⟨44, _⟩ => ⟨S1x512, .f32⟩
  | .hbm, ⟨45, _⟩ => ⟨S50000x512, .f32⟩
  | .hbm, ⟨46, _⟩ => ⟨S50000x512, .f32⟩
  | .hbm, ⟨47, _⟩ => ⟨S1x512, .f32⟩
  | .hbm, ⟨48, _⟩ => ⟨S50000x512, .f32⟩
  | .hbm, ⟨49, _⟩ => ⟨S50000x512, .f32⟩
  | .hbm, ⟨50, _⟩ => ⟨S_, .f32⟩
  | .hbm, ⟨51, _⟩ => ⟨S512, .f32⟩
  | .hbm, ⟨52, _⟩ => ⟨S512, .f32⟩
  | .hbm, ⟨53, _⟩ => ⟨S512, .f32⟩
  | .hbm, ⟨54, _⟩ => ⟨S1x512, .f32⟩
  | .hbm, ⟨55, _⟩ => ⟨S50000x512, .f32⟩
  | .hbm, ⟨56, _⟩ => ⟨S50000x512, .f32⟩
  | .hbm, ⟨57, _⟩ => ⟨S1x512, .f32⟩
  | .hbm, ⟨58, _⟩ => ⟨S50000x512, .f32⟩
  | .hbm, ⟨59, _⟩ => ⟨S50000x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S50000x512 : S_.BroadcastsInDim S50000x512 (![] : Fin 0 → Fin S50000x512.rank)
  transposes_S512x512_S512x512_1_0 : S512x512.Transposes [1, 0] S512x512
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  reducesTo_S50000x512_S512_d0 : S50000x512.ReducesTo [0] S512
  h_S_ : 0 < S_.numel
  bcast_S_S512 : S_.BroadcastsInDim S512 (![] : Fin 0 → Fin S512.rank)
  gather_S50000x512_S160000x1_S160000x512_1_0_n_n_0_1_1512_wf : GatherDims.WF S50000x512 S160000x1 S160000x512 [1] [0] [] [0] [] 1 ![1, 512]
  scatter_S50000x512_S160000x1_S160000x512_1_0_0_1_wf : ScatterDims.WF S50000x512 S160000x1 S160000x512 [1] [0] [0] 1
  dot_S50000x512_S512x512_S50000x512_1_0_0_1_n_n_wf : DotDims.WF S50000x512 S512x512 S50000x512 [1] [0] [0] [1] [] []

variable [Facts₀]

def gather_S50000x512_S160000x1_S160000x512_1_0_n_n_0_1_1512 : GatherDims S50000x512 S160000x1 S160000x512 where
  offsetDims := [1]
  collapsedSliceDims := [0]
  operandBatchingDims := []
  startIndicesBatchingDims := []
  startIndexMap := [0]
  indexVectorDim := 1
  sliceSizes := ![1, 512]
  wf := gather_S50000x512_S160000x1_S160000x512_1_0_n_n_0_1_1512_wf
def scatter_S50000x512_S160000x1_S160000x512_1_0_0_1 : ScatterDims S50000x512 S160000x1 S160000x512 where
  updateWindowDims := [1]
  insertedWindowDims := [0]
  scatterDimsToOperandDims := [0]
  indexVectorDim := 1
  wf := scatter_S50000x512_S160000x1_S160000x512_1_0_0_1_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf

class Facts : Prop extends Facts₀ where

variable [Facts]
-- ==== Proof.KernelRun.lean ====
/-
  The kernel program's run with its result named.

  The program is four segments: host operations, the layer's pipelined region, host operations, the normalizing
  pipelined region. The run of the segments ends with every buffer outside core memory at the contents the last
  segment boundary names (the fold `W4` through the segments); reading that at the result buffer as well as at the
  seven arguments gives the run's post: the result holds what the second region's write-backs leave, the arguments
  are as launched.
-/
import proofs.«162154_j10969346474303_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the last
    boundary's contents and the arguments are unchanged. -/
theorem run_result : θ_run defs (onTc (τ := τ) (main (F := F))) ⟨m, fun _ => 0, ρ⟩ (fun r => ∀ c : Dev nD,
      r.2.mem ((c.tc : Thread nD τ).loc main_v35) = W4 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v35 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Run

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibBlockLayout.lean ====
/-
  Three layout steps of a pipelined kernel body, read at an entry, for any extents.

  A window's block carries a leading unit axis: a body that works on matrices casts a [1, R, C] block to an [R, C]
  matrix on loading and an [R, C] result back to a [1, R, C] block on storing; and a bias kept as a [1, N] row is
  repeated down the R rows of the matrix it is added to. Each step, read at an entry, is the operand read at the
  evident entry: the row-major position of (0, r, c) among [1, R, C] is that of (r, c) among [R, C].
-/
import Idealize.ShloMosaic.Lib.Pipeline.Value
import Idealize.ShloMosaic.Lib.ValueIdx

noncomputable section

namespace Cert.LibBlockLayout

open Idealize.ShloMosaic Idealize.ShloMosaic.ValueIdx

/-- A [1, R, C] block viewed as an [R, C] matrix reads, at (r, c), the block at (0, r, c). -/
theorem dropUnit_at {α : Type} {R C : ℕ} (v : (⟨3, ![1, R, C]⟩ : Shape).Idx → α)
    (h : (⟨3, ![1, R, C]⟩ : Shape).ShapeCasts ⟨2, ![R, C]⟩) (r : Fin R) (c : Fin C) :
    shapeCast ⟨2, ![R, C]⟩ v h (ix2 r c) = v (ix3 (0 : Fin 1) r c) := by
  refine shapeCast_apply v h (ix2 r c) (ix3 (0 : Fin 1) r c) ?_
  rw [Shape.rowMajor_val_three, Shape.rowMajor_val_two]
  show ((0 : ℕ) * R + r.val) * C + c.val = r.val * C + c.val
  rw [Nat.zero_mul, Nat.zero_add]

/-- An [R, C] matrix stored as a [1, R, C] block reads, at (0, r, c), the matrix at (r, c). -/
theorem addUnit_at {α : Type} {R C : ℕ} (v : (⟨2, ![R, C]⟩ : Shape).Idx → α)
    (h : (⟨2, ![R, C]⟩ : Shape).ShapeCasts ⟨3, ![1, R, C]⟩) (r : Fin R) (c : Fin C) :
    shapeCast ⟨3, ![1, R, C]⟩ v h (ix3 (0 : Fin 1) r c) = v (ix2 r c) := by
  refine shapeCast_apply v h (ix3 (0 : Fin 1) r c) (ix2 r c) ?_
  rw [Shape.rowMajor_val_three, Shape.rowMajor_val_two]
  show r.val * C + c.val = ((0 : ℕ) * R + r.val) * C + c.val
  rw [Nat.zero_mul, Nat.zero_add]

/-- A [1, N] row repeated down R rows reads, at (r, g), the row at (0, g). -/
theorem rowBroadcast_at {α : Type} {R N : ℕ} (row : (⟨2, ![1, N]⟩ : Shape).Idx → α)
    (hb : (⟨2, ![1, N]⟩ : Shape).Broadcasts ⟨2, ![R, N]⟩) (r : Fin R) (g : Fin N) :
    broadcastTo ⟨2, ![R, N]⟩ row hb (ix2 r g) = row (ix2 (0 : Fin 1) g) := by
  refine broadcastTo_apply row hb (ix2 r g) (ix2 (0 : Fin 1) g) (fun a => ?_)
  match a with
  | ⟨0, _⟩ => show (0 : ℕ) = if (1 : ℕ) = 1 then 0 else _; rw [if_pos rfl]
  | ⟨1, _⟩ =>
    show g.val = if N = 1 then 0 else g.val
    split_ifs with h
    · have := g.isLt; omega
    · rfl

end Cert.LibBlockLayout

end
-- ==== Proof.LayerBlock.lean ====
/-
  The first pipelined region: what its output array holds, as one function of its four operand arrays.

  The region walks 50 row blocks of 1000 rows. At block `t` the body loads rows `1000·t … 1000·t + 999` of the node
  features and of the neighbour sums, the whole 512 × 512 matrix of transposed weights and the 1 × 512 bias row, and
  stores  (features + sums) · weightsᵀ + bias row  into the same rows of the output. So entry (r, g) of the output
  array ends as
      Σₖ (x (r, k) + a (r, k)) · wt (k, g)  +  b₂ (0, g),
  whatever the region found in its operand arrays: each block written back is the block of that one array function
  (`flushed_eq`), and the 50 blocks tile the array (`cover`).
-/
import proofs.«162154_j10969346474303_2_alg».proof.Proof.Gen.KernelIdeal.Frame
import proofs.«162154_j10969346474303_2_alg».proof.Proof.LibPlainMatmul
import proofs.«162154_j10969346474303_2_alg».proof.Proof.LibBlockLayout
import Idealize.ShloMosaic.Lib.Pipeline.Value

set_option maxRecDepth 16384

noncomputable section

open scoped BigOperators

namespace Cert.KernelIdeal.Layer

open Cert.KernelIdeal Cert.KernelIdeal.Gen Cert.KernelIdeal.Facts₀
open Idealize.ShloMosaic Idealize.ShloMosaic.TcCoe Idealize.ShloMosaic.ValueIdx
open Idealize.SL Idealize.SL.Sem
open Idealize.ShloMosaic.Pipeline (Dat Cfg Window)

/-- Entry (r, g) of the layer's output from the operand arrays as the region takes them: the weights already
    transposed, the bias a 1 × 512 row. -/
def layerAt (x a : (⟨2, ![50000, 512]⟩ : Shape).Idx → EReal) (wt : (⟨2, ![512, 512]⟩ : Shape).Idx → EReal)
    (b2 : (⟨2, ![1, 512]⟩ : Shape).Idx → EReal) (r : Fin 50000) (g : Fin 512) : EReal :=
  (∑ k : Fin 512, (x (ix2 r k) + a (ix2 r k)) * wt (ix2 k g)) + b2 (ix2 (0 : Fin 1) g)

/-- The same as an array. -/
def layerArr (x a : (⟨2, ![50000, 512]⟩ : Shape).Idx → EReal) (wt : (⟨2, ![512, 512]⟩ : Shape).Idx → EReal)
    (b2 : (⟨2, ![1, 512]⟩ : Shape).Idx → EReal) : (⟨2, ![50000, 512]⟩ : Shape).Idx → EReal :=
  fun i => layerAt x a wt b2 (i 0) (i 1)

/-- The body's stored value at entry (p, g) of a block, from the four loaded blocks. -/
theorem body_at (x0 x1 : Vec Ideal S1000x512 .f32) (x2 : Vec Ideal S512x512 .f32) (x3 : Vec Ideal S1x512 .f32)
    (p : Fin 1000) (g : Fin 512) :
    k0_pay1 (F := Ideal) x0 x1 x2 x3 (ix2 p g)
      = (∑ k : Fin 512, (x0 (ix2 p k) + x1 (ix2 p k)) * x2 (ix2 k g)) + x3 (ix2 (0 : Fin 1) g) := by
  unfold k0_pay1
  refine (addf_apply _ _ _).trans (congrArg₂ (· + ·) ?_ ?_)
  · rw [shapeCast_self, shapeCast_self]
    exact Cert.LibPlainMatmul.matmul_zero_apply (some .fp32) (addf x0 x1) x2 p g
  · rw [shapeCast_self]
    exact Cert.LibBlockLayout.rowBroadcast_at x3 Facts₀.broadcasts_S1x512_S1000x512 p g

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The block index of every window at every grid point: the row-blocked windows (features, sums, output) are at
    block (t, 0), the weights and the bias row at block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What grid point `t` writes back is block `t` of the one array function `layerArr` of the operand arrays. -/
theorem flushed_eq (c : Dev nD) (t : Fin cfg0.N) :
    (dat0 V c).flushed 4 t = ((cfg0.win 4).blk t).view.read (Elt Ideal)
      (layerArr (V c main_arg0) (V c main_v13) (V c main_v14) (V c main_v15)) := by
  show (cfg0.win 4).cut (grid0.coords t) ((dat0 V c).after 4 t) = _
  rw [after0_4]
  unfold out0_4
  rw [View.canon_unit_zero zero_offsets]
  simp only [View.ld_unit_zero (S := S1000x512) zero_offsets, View.ld_unit_zero (S := S512x512) zero_offsets,
    View.ld_unit_zero (S := S1x512) zero_offsets]
  obtain ⟨e00, e01, e10, e11, e20, e21, e30, e31, e40, e41⟩ := block_indices t
  have ht : t.val < 50 := lt_of_lt_of_eq t.isLt N_0
  funext j
  obtain ⟨p, g, rfl⟩ : ∃ (p : Fin 1000) (g : Fin 512), j = ix2 p g := ⟨j 0, j 1, eq_ix2 j⟩
  have hp : p.val < 1000 := p.isLt
  have hR : t.val * 1000 + p.val < 50000 := by omega
  refine (body_at (iblk0 V c 0 t) (iblk0 V c 1 t) (iblk0 V c 2 t) (iblk0 V c 3 t) p g).trans ?_
  have h0 : ∀ k : Fin 512, ((cfg0.win 0).blk t).view.emb (ix2 p k) = ix2 (⟨t.val * 1000 + p.val, hR⟩ : Fin 50000) k :=
    fun k => funext fun a => Fin.ext (by
      match a with
      | ⟨0, _⟩ => show win0_0.index t (0 : Fin 2) * 1000 + 1 * p.val = t.val * 1000 + p.val; omega
      | ⟨1, _⟩ => show win0_0.index t (1 : Fin 2) * 512 + 1 * k.val = k.val; omega)
  have h1 : ∀ k : Fin 512, ((cfg0.win 1).blk t).view.emb (ix2 p k) = ix2 (⟨t.val * 1000 + p.val, hR⟩ : Fin 50000) k :=
    fun k => funext fun a => Fin.ext (by
      match a with
      | ⟨0, _⟩ => show win0_1.index t (0 : Fin 2) * 1000 + 1 * p.val = t.val * 1000 + p.val; omega
      | ⟨1, _⟩ => show win0_1.index t (1 : Fin 2) * 512 + 1 * k.val = k.val; omega)
  have h2 : ∀ k : Fin 512, ((cfg0.win 2).blk t).view.emb (ix2 k g) = ix2 k g :=
    fun k => funext fun a => Fin.ext (by
      match a with
      | ⟨0, _⟩ => show win0_2.index t (0 : Fin 2) * 512 + 1 * k.val = k.val; omega
      | ⟨1, _⟩ => show win0_2.index t (1 : Fin 2) * 512 + 1 * g.val = g.val; omega)
  have h3 : ((cfg0.win 3).blk t).view.emb (ix2 (0 : Fin 1) g) = ix2 (0 : Fin 1) g :=
    funext fun a => Fin.ext (by
      match a with
      | ⟨0, _⟩ => show win0_3.index t (0 : Fin 2) * 1 + 1 * 0 = 0; omega
      | ⟨1, _⟩ => show win0_3.index t (1 : Fin 2) * 512 + 1 * g.val = g.val; omega)
  have h4 : ((cfg0.win 4).blk t).view.emb (ix2 p g) = ix2 (⟨t.val * 1000 + p.val, hR⟩ : Fin 50000) g :=
    funext fun a => Fin.ext (by
      match a with
      | ⟨0, _⟩ => show win0_4.index t (0 : Fin 2) * 1000 + 1 * p.val = t.val * 1000 + p.val; omega
      | ⟨1, _⟩ => show win0_4.index t (1 : Fin 2) * 512 + 1 * g.val = g.val; omega)
  have r0 : ∀ k : Fin 512, iblk0 V c 0 t (ix2 p k) = V c main_arg0 (ix2 (⟨t.val * 1000 + p.val, hR⟩ : Fin 50000) k) :=
    fun k => congrArg (V c main_arg0) (h0 k)
  have r1 : ∀ k : Fin 512, iblk0 V c 1 t (ix2 p k) = V c main_v13 (ix2 (⟨t.val * 1000 + p.val, hR⟩ : Fin 50000) k) :=
    fun k => congrArg (V c main_v13) (h1 k)
  have r2 : ∀ k : Fin 512, iblk0 V c 2 t (ix2 k g) = V c main_v14 (ix2 k g) :=
    fun k => congrArg (V c main_v14) (h2 k)
  have r3 : iblk0 V c 3 t (ix2 (0 : Fin 1) g) = V c main_v15 (ix2 (0 : Fin 1) g) := congrArg (V c main_v15) h3
  rw [r3]
  simp only [r0, r1, r2]
  refine Eq.trans ?_ (congrArg (layerArr (V c main_arg0) (V c main_v13) (V c main_v14) (V c main_v15)) h4).symm
  rfl

/-- An index of the array is in point `t`'s output block iff each coordinate is in the block's range. -/
theorem mem_blk (t : Fin cfg0.N) (i : S50000x512.Idx) :
    i ∈ ((cfg0.win 4).blk t).view.set ↔ ∀ a : Fin 2, win0_4.index t a * S1000x512.size a ≤ (i a).val
      ∧ (i a).val < win0_4.index t a * S1000x512.size a + S1000x512.size a := by
  show i ∈ ((View.whole main_v18).slice (win0_4.rect t)).set ↔ _
  rw [View.set_slice_whole, Rect.mem_set_unit]
  exact Iff.rfl

/-- The 50 output blocks tile the array: row `r` is in block `r / 1000`. -/
theorem cover (i : S50000x512.Idx) :
    ∃ t : Fin cfg0.N, (cfg0.win 4).flush t = true ∧ i ∈ ((cfg0.win 4).blk t).view.set := by
  have hi0 : (i 0).val < 50000 := (i 0).isLt
  have hi1 : (i 1).val < 512 := (i 1).isLt
  have hq : (i 0).val / 1000 < cfg0.N := lt_of_lt_of_eq (by omega : (i 0).val / 1000 < 50) N_0.symm
  obtain ⟨_, _, _, _, _, _, _, _, e40, e41⟩ := block_indices ⟨(i 0).val / 1000, hq⟩
  refine ⟨⟨(i 0).val / 1000, hq⟩, flush0_4 _, ?_⟩
  rw [mem_blk]
  intro a
  match a with
  | ⟨0, _⟩ =>
    show win0_4.index ⟨(i 0).val / 1000, hq⟩ (0 : Fin 2) * 1000 ≤ (i 0).val
      ∧ (i 0).val < win0_4.index ⟨(i 0).val / 1000, hq⟩ (0 : Fin 2) * 1000 + 1000
    rw [e40]
    show (i 0).val / 1000 * 1000 ≤ (i 0).val ∧ (i 0).val < (i 0).val / 1000 * 1000 + 1000
    omega
  | ⟨1, _⟩ =>
    show win0_4.index ⟨(i 0).val / 1000, hq⟩ (1 : Fin 2) * 512 ≤ (i 1).val
      ∧ (i 1).val < win0_4.index ⟨(i 0).val / 1000, hq⟩ (1 : Fin 2) * 512 + 512
    omega

/-- The output array after the region: the layer's function of the operand arrays as the region found them. -/
theorem final (c : Dev nD) :
    (dat0 V c).arrAt 4 cfg0.N = layerArr (V c main_arg0) (V c main_v13) (V c main_v14) (V c main_v15) :=
  (dat0 V c).arrAt_eq_of_cover 4 _ (fun t _ => flushed_eq V c t) cover

end Cert.KernelIdeal.Layer

end
-- ==== Proof.NormBlock.lean ====
/-
  The second pipelined region: what its output array holds, as one function of its five operand arrays.

  The region walks the same 50 row blocks. At block `t` the body loads rows `1000·t … 1000·t + 999` of the layer's
  output and the four 1 × 512 rows of column means, reciprocal standard deviations, scales and shifts, and stores
      ((scale · (z − mean)) · reciprocal deviation) + shift
  into the same rows of the result, each row operand repeated down the block's rows. So entry (r, g) of the result
  array ends as  ((γ (0, g) · (z (r, g) − μ (0, g))) · s (0, g)) + β (0, g), whatever the region found in its operand
  arrays: each block written back is the block of that one array function, and the 50 blocks tile the array.
-/
import proofs.«162154_j10969346474303_2_alg».proof.Proof.Gen.KernelIdeal.Frame
import proofs.«162154_j10969346474303_2_alg».proof.Proof.LibBlockLayout
import Idealize.ShloMosaic.Lib.Pipeline.Value

set_option maxRecDepth 16384

noncomputable section

open scoped BigOperators

namespace Cert.KernelIdeal.Norm

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- Entry (r, g) of the normalized result from the operand arrays as the region takes them: the four per-column
    quantities are 1 × 512 rows. -/
def normAt (z : (⟨2, ![50000, 512]⟩ : Shape).Idx → EReal) (μ s γ β : (⟨2, ![1, 512]⟩ : Shape).Idx → EReal)
    (r : Fin 50000) (g : Fin 512) : EReal :=
  ((γ (ix2 (0 : Fin 1) g) * (z (ix2 r g) - μ (ix2 (0 : Fin 1) g))) * s (ix2 (0 : Fin 1) g)) + β (ix2 (0 : Fin 1) g)

/-- The same as an array. -/
def normArr (z : (⟨2, ![50000, 512]⟩ : Shape).Idx → EReal) (μ s γ β : (⟨2, ![1, 512]⟩ : Shape).Idx → EReal) :
    (⟨2, ![50000, 512]⟩ : Shape).Idx → EReal :=
  fun i => normAt z μ s γ β (i 0) (i 1)

/-- The body's stored value at entry (p, g) of a block, from the five loaded blocks (in the body's own order of
    loading: scales, layer output, means, reciprocal deviations, shifts). -/
theorem body_at (γb : Vec Ideal S1x512 .f32) (zb : Vec Ideal S1000x512 .f32) (μb sb βb : Vec Ideal S1x512 .f32)
    (p : Fin 1000) (g : Fin 512) :
    k1_pay1 (F := Ideal) γb zb μb sb βb (ix2 p g)
      = ((γb (ix2 (0 : Fin 1) g) * (zb (ix2 p g) - μb (ix2 (0 : Fin 1) g))) * sb (ix2 (0 : Fin 1) g))
        + βb (ix2 (0 : Fin 1) g) := by
  unfold k1_pay1
  refine (addf_apply _ _ _).trans (congrArg₂ (· + ·) ?_ ?_)
  · refine (mulf_apply _ _ _).trans (congrArg₂ (· * ·) ?_ ?_)
    · refine (mulf_apply _ _ _).trans (congrArg₂ (· * ·) ?_ ?_)
      · rw [shapeCast_self]
        exact Cert.LibBlockLayout.rowBroadcast_at γb Facts₀.broadcasts_S1x512_S1000x512 p g
      · refine (subf_apply _ _ _).trans (congrArg₂ (· - ·) ?_ ?_)
        · rw [shapeCast_self]
        · rw [shapeCast_self]
          exact Cert.LibBlockLayout.rowBroadcast_at μb Facts₀.broadcasts_S1x512_S1000x512 p g
    · rw [shapeCast_self]
      exact Cert.LibBlockLayout.rowBroadcast_at sb Facts₀.broadcasts_S1x512_S1000x512 p g
  · rw [shapeCast_self]
    exact Cert.LibBlockLayout.rowBroadcast_at βb Facts₀.broadcasts_S1x512_S1000x512 p g

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The block index of every window at every grid point: the row-blocked windows (layer output, result) are at block
    (t, 0), the four row operands at block (0, 0). -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What grid point `t` writes back is block `t` of the one array function `normArr` of the operand arrays. -/
theorem flushed_eq (c : Dev nD) (t : Fin cfg1.N) :
    (dat1 V c).flushed 5 t = ((cfg1.win 5).blk t).view.read (Elt Ideal)
      (normArr (V c main_v18) (V c main_v22) (V c main_v34) (V c main_v16) (V c main_v17)) := by
  show (cfg1.win 5).cut (grid1.coords t) ((dat1 V c).after 5 t) = _
  rw [after1_5]
  unfold out1_5
  rw [View.canon_unit_zero zero_offsets]
  simp only [View.ld_unit_zero (S := S1000x512) zero_offsets, View.ld_unit_zero (S := S1x512) zero_offsets]
  obtain ⟨e00, e01, e10, e11, e20, e21, e30, e31, e40, e41, e50, e51⟩ := block_indices t
  have ht : t.val < 50 := lt_of_lt_of_eq t.isLt N_1
  funext j
  obtain ⟨p, g, rfl⟩ : ∃ (p : Fin 1000) (g : Fin 512), j = ix2 p g := ⟨j 0, j 1, eq_ix2 j⟩
  have hp : p.val < 1000 := p.isLt
  have hR : t.val * 1000 + p.val < 50000 := by omega
  refine (body_at (iblk1 V c 3 t) (iblk1 V c 0 t) (iblk1 V c 1 t) (iblk1 V c 2 t) (iblk1 V c 4 t) p g).trans ?_
  have h0 : ((cfg1.win 0).blk t).view.emb (ix2 p g) = ix2 (⟨t.val * 1000 + p.val, hR⟩ : Fin 50000) g :=
    funext fun a => Fin.ext (by
      match a with
      | ⟨0, _⟩ => show win1_0.index t (0 : Fin 2) * 1000 + 1 * p.val = t.val * 1000 + p.val; omega
      | ⟨1, _⟩ => show win1_0.index t (1 : Fin 2) * 512 + 1 * g.val = g.val; omega)
  have h1 : ((cfg1.win 1).blk t).view.emb (ix2 (0 : Fin 1) g) = ix2 (0 : Fin 1) g :=
    funext fun a => Fin.ext (by
      match a with
      | ⟨0, _⟩ => show win1_1.index t (0 : Fin 2) * 1 + 1 * 0 = 0; omega
      | ⟨1, _⟩ => show win1_1.index t (1 : Fin 2) * 512 + 1 * g.val = g.val; omega)
  have h2 : ((cfg1.win 2).blk t).view.emb (ix2 (0 : Fin 1) g) = ix2 (0 : Fin 1) g :=
    funext fun a => Fin.ext (by
      match a with
      | ⟨0, _⟩ => show win1_2.index t (0 : Fin 2) * 1 + 1 * 0 = 0; omega
      | ⟨1, _⟩ => show win1_2.index t (1 : Fin 2) * 512 + 1 * g.val = g.val; omega)
  have h3 : ((cfg1.win 3).blk t).view.emb (ix2 (0 : Fin 1) g) = ix2 (0 : Fin 1) g :=
    funext fun a => Fin.ext (by
      match a with
      | ⟨0, _⟩ => show win1_3.index t (0 : Fin 2) * 1 + 1 * 0 = 0; omega
      | ⟨1, _⟩ => show win1_3.index t (1 : Fin 2) * 512 + 1 * g.val = g.val; omega)
  have h4 : ((cfg1.win 4).blk t).view.emb (ix2 (0 : Fin 1) g) = ix2 (0 : Fin 1) g :=
    funext fun a => Fin.ext (by
      match a with
      | ⟨0, _⟩ => show win1_4.index t (0 : Fin 2) * 1 + 1 * 0 = 0; omega
      | ⟨1, _⟩ => show win1_4.index t (1 : Fin 2) * 512 + 1 * g.val = g.val; omega)
  have h5 : ((cfg1.win 5).blk t).view.emb (ix2 p g) = ix2 (⟨t.val * 1000 + p.val, hR⟩ : Fin 50000) g :=
    funext fun a => Fin.ext (by
      match a with
      | ⟨0, _⟩ => show win1_5.index t (0 : Fin 2) * 1000 + 1 * p.val = t.val * 1000 + p.val; omega
      | ⟨1, _⟩ => show win1_5.index t (1 : Fin 2) * 512 + 1 * g.val = g.val; omega)
  have r0 : iblk1 V c 0 t (ix2 p g) = V c main_v18 (ix2 (⟨t.val * 1000 + p.val, hR⟩ : Fin 50000) g) :=
    congrArg (V c main_v18) h0
  have r1 : iblk1 V c 1 t (ix2 (0 : Fin 1) g) = V c main_v22 (ix2 (0 : Fin 1) g) := congrArg (V c main_v22) h1
  have r2 : iblk1 V c 2 t (ix2 (0 : Fin 1) g) = V c main_v34 (ix2 (0 : Fin 1) g) := congrArg (V c main_v34) h2
  have r3 : iblk1 V c 3 t (ix2 (0 : Fin 1) g) = V c main_v16 (ix2 (0 : Fin 1) g) := congrArg (V c main_v16) h3
  have r4 : iblk1 V c 4 t (ix2 (0 : Fin 1) g) = V c main_v17 (ix2 (0 : Fin 1) g) := congrArg (V c main_v17) h4
  rw [r0, r1, r2, r3, r4]
  refine Eq.trans ?_
    (congrArg (normArr (V c main_v18) (V c main_v22) (V c main_v34) (V c main_v16) (V c main_v17)) h5).symm
  rfl

/-- An index of the array is in point `t`'s output block iff each coordinate is in the block's range. -/
theorem mem_blk (t : Fin cfg1.N) (i : S50000x512.Idx) :
    i ∈ ((cfg1.win 5).blk t).view.set ↔ ∀ a : Fin 2, win1_5.index t a * S1000x512.size a ≤ (i a).val
      ∧ (i a).val < win1_5.index t a * S1000x512.size a + S1000x512.size a := by
  show i ∈ ((View.whole main_v35).slice (win1_5.rect t)).set ↔ _
  rw [View.set_slice_whole, Rect.mem_set_unit]
  exact Iff.rfl

/-- The 50 output blocks tile the array: row `r` is in block `r / 1000`. -/
theorem cover (i : S50000x512.Idx) :
    ∃ t : Fin cfg1.N, (cfg1.win 5).flush t = true ∧ i ∈ ((cfg1.win 5).blk t).view.set := by
  have hi0 : (i 0).val < 50000 := (i 0).isLt
  have hi1 : (i 1).val < 512 := (i 1).isLt
  have hq : (i 0).val / 1000 < cfg1.N := lt_of_lt_of_eq (by omega : (i 0).val / 1000 < 50) N_1.symm
  obtain ⟨_, _, _, _, _, _, _, _, _, _, e50, e51⟩ := block_indices ⟨(i 0).val / 1000, hq⟩
  refine ⟨⟨(i 0).val / 1000, hq⟩, flush1_5 _, ?_⟩
  rw [mem_blk]
  intro a
  match a with
  | ⟨0, _⟩ =>
    show win1_5.index ⟨(i 0).val / 1000, hq⟩ (0 : Fin 2) * 1000 ≤ (i 0).val
      ∧ (i 0).val < win1_5.index ⟨(i 0).val / 1000, hq⟩ (0 : Fin 2) * 1000 + 1000
    rw [e50]
    show (i 0).val / 1000 * 1000 ≤ (i 0).val ∧ (i 0).val < (i 0).val / 1000 * 1000 + 1000
    omega
  | ⟨1, _⟩ =>
    show win1_5.index ⟨(i 0).val / 1000, hq⟩ (1 : Fin 2) * 512 ≤ (i 1).val
      ∧ (i 1).val < win1_5.index ⟨(i 0).val / 1000, hq⟩ (1 : Fin 2) * 512 + 512
    omega

/-- The result array after the region: the normalizing function of the operand arrays as the region found them. -/
theorem final (c : Dev nD) :
    (dat1 V c).arrAt 5 cfg1.N = normArr (V c main_v18) (V c main_v22) (V c main_v34) (V c main_v16) (V c main_v17) :=
  (dat1 V c).arrAt_eq_of_cover 5 _ (fun t _ => flushed_eq V c t) cover

end Cert.KernelIdeal.Norm

end
-- ==== Proof.NormSpec.lean ====
/-
  One graph-isomorphism layer followed by a batch normalization, entry by entry on the extended reals.

  The node features `x` and their neighbour sums `a` (both 50000 × 512) are added, multiplied by the transpose of
  the 512 × 512 weight matrix `w` and shifted by the bias `b`:
      lin (r, g) = Σₖ (x (r, k) + a (r, k)) · w (g, k)  +  b g.
  A column of such a matrix `z` has the mean `(0 + Σᵣ z (r, g)) / 50000` and the biased variance
  `(0 + Σᵣ (z (r, g) - mean g)²) / 50000`; the normalized entry is
      ((γ g · (z (r, g) - mean g)) · rsqrt (variance g + ε)) + β g.
  One of the two programs compared clamps the variance from below at zero before adding ε. A square is never
  negative on the extended reals (the two infinities square to +∞), a sum of such terms from zero is not negative,
  and neither is its quotient by the positive number 50000: so the clamp is the identity (`clamp_variance`).
  Every literal is kept as the extended real its 32-bit pattern denotes; only zero and 50000 are ever evaluated.
-/
import Idealize.ShloMosaic.Lib.ValueIdx
import Idealize.ShloMosaic.PureOps.Ideal.Laws

noncomputable section

open scoped BigOperators

namespace Cert.NormSpec

open Idealize.ShloMosaic Idealize.ShloMosaic.ValueIdx

/-- The pattern of 50000.0 denotes the real number 50000. -/
theorem count_eq : Ideal.ofBits .f32 0x47435000#32 = ((50000 : ℝ) : EReal) := by
  simp [Ideal.ofBits, Ideal.ieee, -EReal.coe_mul]; norm_num

/-- Entry (r, g) of the layer's output before normalization. -/
def lin (x a : (⟨2, ![50000, 512]⟩ : Shape).Idx → EReal) (w : (⟨2, ![512, 512]⟩ : Shape).Idx → EReal)
    (b : (⟨1, ![512]⟩ : Shape).Idx → EReal) (r : Fin 50000) (g : Fin 512) : EReal :=
  (∑ k : Fin 512, (x (ix2 r k) + a (ix2 r k)) * w (ix2 g k)) + b (ix1 g)

/-- The layer's output as an array. -/
def linArr (x a : (⟨2, ![50000, 512]⟩ : Shape).Idx → EReal) (w : (⟨2, ![512, 512]⟩ : Shape).Idx → EReal)
    (b : (⟨1, ![512]⟩ : Shape).Idx → EReal) : (⟨2, ![50000, 512]⟩ : Shape).Idx → EReal :=
  fun i => lin x a w b (i 0) (i 1)

/-- The mean of column `g`. -/
def mean (z : (⟨2, ![50000, 512]⟩ : Shape).Idx → EReal) (g : Fin 512) : EReal :=
  Ideal.div (Ideal.ofBits .f32 0x00000000#32 + ∑ r : Fin 50000, z (ix2 r g)) (Ideal.ofBits .f32 0x47435000#32)

/-- The biased variance of column `g`. -/
def variance (z : (⟨2, ![50000, 512]⟩ : Shape).Idx → EReal) (g : Fin 512) : EReal :=
  Ideal.div (Ideal.ofBits .f32 0x00000000#32
      + ∑ r : Fin 50000, (z (ix2 r g) - mean z g) * (z (ix2 r g) - mean z g)) (Ideal.ofBits .f32 0x47435000#32)

/-- The reciprocal standard deviation of column `g`, with the usual ε under the root. -/
def invStd (z : (⟨2, ![50000, 512]⟩ : Shape).Idx → EReal) (g : Fin 512) : EReal :=
  Ideal.rsqrt (variance z g + Ideal.ofBits .f32 0x3727C5AC#32)

/-- Entry (r, g) of the normalized output. -/
def norm (z : (⟨2, ![50000, 512]⟩ : Shape).Idx → EReal) (γ β : (⟨1, ![512]⟩ : Shape).Idx → EReal)
    (r : Fin 50000) (g : Fin 512) : EReal :=
  ((γ (ix1 g) * (z (ix2 r g) - mean z g)) * invStd z g) + β (ix1 g)

/-- The normalized output as an array. -/
def normArr (z : (⟨2, ![50000, 512]⟩ : Shape).Idx → EReal) (γ β : (⟨1, ![512]⟩ : Shape).Idx → EReal) :
    (⟨2, ![50000, 512]⟩ : Shape).Idx → EReal :=
  fun i => norm z γ β (i 0) (i 1)

/-- A square is not negative, at the infinities either. -/
theorem sq_nonneg' (d : EReal) : 0 ≤ d * d := by
  rw [EReal.mul_nonneg_iff]
  rcases le_total 0 d with h | h
  · exact Or.inl ⟨h, h⟩
  · exact Or.inr ⟨h, h⟩

/-- The variance is not negative. -/
theorem variance_nonneg (z : (⟨2, ![50000, 512]⟩ : Shape).Idx → EReal) (g : Fin 512) : 0 ≤ variance z g := by
  unfold variance
  rw [count_eq, Ideal.div_coe (by norm_num : (50000 : ℝ) ≠ 0), Ideal.ofBits_zero_f32, zero_add]
  exact EReal.mul_nonneg (Finset.sum_nonneg fun r _ => sq_nonneg' _) (EReal.coe_nonneg.mpr (by norm_num))

/-- Clamping the variance from below at zero changes nothing. -/
theorem clamp_variance (z : (⟨2, ![50000, 512]⟩ : Shape).Idx → EReal) (g : Fin 512) :
    max (variance z g) (Ideal.ofBits .f32 0x00000000#32) = variance z g := by
  rw [Ideal.ofBits_zero_f32]
  exact max_eq_left (variance_nonneg z g)

end Cert.NormSpec

end
-- ==== Proof.LibHostRows.lean ====
/-
  The host's keep-dimension broadcasts and its row sum, read at an entry, for any extents.

  `jnp` writes `v[:, None]` as a `broadcast_in_dim` of an `[a]` vector into an `[a, 1]` column (the vector's axis sent
  to axis 0), repeats such a column along `b` columns by a `broadcast_in_dim` with the identity axis map, writes a bias
  `[b]` as a `[1, b]` row (the vector's axis sent to axis 1) and repeats that row down `a` rows. Each, read at an
  entry, is the operand at the evident entry. A host sum over the second axis of an `[a, b]` matrix, read at row `r`
  on the extended reals, is the initial value plus the sum of that row's entries.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.LibHostRows

open Idealize.ShloMosaic Idealize.ShloMosaic.ValueIdx

variable {α : Type}

/-- An `[a]` vector broadcast into the column `[a, 1]` reads, at `(r, u)`, the vector at `r`. -/
theorem bcast_a_a1_at {a : ℕ} (dims : Fin (⟨1, ![a]⟩ : Shape).rank → Fin (⟨2, ![a, 1]⟩ : Shape).rank) (hd : dims 0 = 0)
    (h : (⟨1, ![a]⟩ : Shape).BroadcastsInDim ⟨2, ![a, 1]⟩ dims) (x : (⟨1, ![a]⟩ : Shape).Idx → α) (r : Fin a) (u : Fin 1) :
    broadcastInDim ⟨2, ![a, 1]⟩ dims h x (ix2 r u) = x (ix1 r) := by
  refine broadcastInDim_apply dims h x (ix2 r u) (ix1 r) fun ax => ?_
  match ax with
  | ⟨0, _⟩ =>
    show r.val = if a = 1 then 0 else (ix2 r u (dims 0)).val
    rw [hd]
    split
    · have := r.isLt; omega
    · rfl

/-- A column `[a, 1]` broadcast along `b` columns reads, at `(r, k)`, the column at `r`. -/
theorem bcast_a1_ab_at {a b : ℕ} (dims : Fin (⟨2, ![a, 1]⟩ : Shape).rank → Fin (⟨2, ![a, b]⟩ : Shape).rank)
    (hd0 : dims 0 = 0) (hd1 : dims 1 = 1)
    (h : (⟨2, ![a, 1]⟩ : Shape).BroadcastsInDim ⟨2, ![a, b]⟩ dims) (x : (⟨2, ![a, 1]⟩ : Shape).Idx → α) (r : Fin a) (k : Fin b) :
    broadcastInDim ⟨2, ![a, b]⟩ dims h x (ix2 r k) = x (ix2 r (0 : Fin 1)) := by
  refine broadcastInDim_apply dims h x (ix2 r k) (ix2 r (0 : Fin 1)) fun ax => ?_
  match ax with
  | ⟨0, _⟩ =>
    show r.val = if a = 1 then 0 else (ix2 r k (dims 0)).val
    rw [hd0]
    split
    · have := r.isLt; omega
    · rfl
  | ⟨1, _⟩ =>
    show (0 : ℕ) = if (1 : ℕ) = 1 then 0 else (ix2 r k (dims 1)).val
    rw [if_pos rfl]

/-- A vector `[b]` broadcast into the row `[1, b]` reads, at `(u, j)`, the vector at `j`. -/
theorem bcast_b_1b_at {b : ℕ} (dims : Fin (⟨1, ![b]⟩ : Shape).rank → Fin (⟨2, ![1, b]⟩ : Shape).rank) (hd : dims 0 = 1)
    (h : (⟨1, ![b]⟩ : Shape).BroadcastsInDim ⟨2, ![1, b]⟩ dims) (x : (⟨1, ![b]⟩ : Shape).Idx → α) (u : Fin 1) (j : Fin b) :
    broadcastInDim ⟨2, ![1, b]⟩ dims h x (ix2 u j) = x (ix1 j) := by
  refine broadcastInDim_apply dims h x (ix2 u j) (ix1 j) fun ax => ?_
  match ax with
  | ⟨0, _⟩ =>
    show j.val = if b = 1 then 0 else (ix2 u j (dims 0)).val
    rw [hd]
    split
    · have := j.isLt; omega
    · rfl

/-- A row `[1, b]` repeated down `a` rows reads, at `(r, j)`, the row at `j`. -/
theorem bcast_1b_ab_at {a b : ℕ} (dims : Fin (⟨2, ![1, b]⟩ : Shape).rank → Fin (⟨2, ![a, b]⟩ : Shape).rank)
    (hd0 : dims 0 = 0) (hd1 : dims 1 = 1)
    (h : (⟨2, ![1, b]⟩ : Shape).BroadcastsInDim ⟨2, ![a, b]⟩ dims) (x : (⟨2, ![1, b]⟩ : Shape).Idx → α) (r : Fin a) (j : Fin b) :
    broadcastInDim ⟨2, ![a, b]⟩ dims h x (ix2 r j) = x (ix2 (0 : Fin 1) j) := by
  refine broadcastInDim_apply dims h x (ix2 r j) (ix2 (0 : Fin 1) j) fun ax => ?_
  match ax with
  | ⟨0, _⟩ =>
    show (0 : ℕ) = if (1 : ℕ) = 1 then 0 else (ix2 r j (dims 0)).val
    rw [if_pos rfl]
  | ⟨1, _⟩ =>
    show j.val = if b = 1 then 0 else (ix2 r j (dims 1)).val
    rw [hd1]
    split
    · have := j.isLt; omega
    · rfl

/-- On the extended reals the host's sum over the second axis of an `[a, b]` matrix is, at row `r`, the initial value plus
    the sum of that row's entries. -/
theorem hostReduceAdd_rows {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ d : Fin b, x (ix2 r d) := by
  rw [hostReduceAdd_apply, Ideal.hostReduceAdd_single h' h]
  refine congrArg (init (Shape.Idx.first hu) + ·) (Finset.sum_congr rfl fun d _ => congrArg x (funext fun ax => Fin.ext ?_))
  match ax with
  | ⟨0, _⟩ => rfl
  | ⟨1, _⟩ => rfl

end Cert.LibHostRows

end
-- ==== Proof.LibHostCols.lean ====
/-
  The host's column sum read at an entry, for any extents.

  A host sum over the FIRST axis of an `[a, b]` matrix (what `jnp.sum(z, axis=0)` and the sums inside
  `jnp.mean(z, axis=0)` lower to), read at column `g` on the extended reals, is the initial value plus the sum over the
  rows `r` of the entries `(r, g)`.
-/
import Idealize.ShloMosaic.Lib.ValueIdx
import Idealize.ShloMosaic.Lib.IdealHost
import Idealize.ShloMosaic.PureOps.Ideal.Laws

noncomputable section

open scoped BigOperators

namespace Cert.LibHostCols

open Idealize.ShloMosaic Idealize.ShloMosaic.ValueIdx

/-- On the extended reals the host's sum over the first axis of an `[a, b]` matrix is, at column `g`, the initial value
    plus the sum of that column's entries. -/
theorem hostReduceAdd_cols {a b : ℕ} {u : Shape} (x : FVec Ideal ⟨2, ![a, b]⟩ .f32) (init : u.Idx → Ideal .f32)
    (h' : (⟨2, ![a, b]⟩ : Shape).ReducesTo [0] ⟨1, ![b]⟩) (h : (⟨2, ![a, b]⟩ : Shape).Reduces [0] ⟨1, ![b]⟩)
    (hu : 0 < u.numel) (g : Fin b) :
    Host.reduceAdd x init h' hu (ix1 g) = init (Shape.Idx.first hu) + ∑ r : Fin a, x (ix2 r g) := by
  rw [hostReduceAdd_apply, Ideal.hostReduceAdd_single h' h]
  refine congrArg (init (Shape.Idx.first hu) + ·) (Finset.sum_congr rfl fun r _ => congrArg x (funext fun ax => Fin.ext ?_))
  match ax with
  | ⟨0, _⟩ => rfl
  | ⟨1, _⟩ => rfl

end Cert.LibHostCols

end
-- ==== Proof.HostStats.lean ====
/-
  The host operations between the two pipelined regions, read at an entry.

  From the layer's output `z` the host takes, as 1 × 512 rows, each column's mean (a column sum from zero, divided by
  50000), each column's biased variance (the column sum from zero of the squared deviations, divided by 50000), and
  the reciprocal root of the variance clamped from below at zero plus ε. Read at column `g` these are the mean, the
  variance and the reciprocal standard deviation of the specification; the clamp disappears because a variance is
  never negative.
-/
import proofs.«162154_j10969346474303_2_alg».proof.KernelIdeal
import proofs.«162154_j10969346474303_2_alg».proof.Proof.Gen.KernelIdeal
import proofs.«162154_j10969346474303_2_alg».proof.Proof.NormSpec
import proofs.«162154_j10969346474303_2_alg».proof.Proof.LibHostRows
import proofs.«162154_j10969346474303_2_alg».proof.Proof.LibHostCols

noncomputable section

open scoped BigOperators

namespace Cert.KernelIdeal.Stats

open Cert.KernelIdeal Cert.KernelIdeal.Facts₀
open Idealize.ShloMosaic Idealize.ShloMosaic.ValueIdx

/-- The row of column means, in the host's spelling. -/
def meanRow (z : FVec Ideal S50000x512 .f32) : FVec Ideal S1x512 .f32 :=
  Host.divf
    (broadcastInDim S1x512 ![1] bcast_S512_S1x512_1
      (Host.reduceAdd z (constant (F := Ideal) S_ .f32 0x00000000#32) reducesTo_S50000x512_S512_d0 h_S_))
    (broadcastInDim S1x512 ![] bcast_S_S1x512 (constant (F := Ideal) S_ .f32 0x47435000#32))

/-- The deviations from the column means. -/
def devs (z : FVec Ideal S50000x512 .f32) : FVec Ideal S50000x512 .f32 :=
  subf z (broadcastInDim S50000x512 ![0, 1] bcast_S1x512_S50000x512_0_1 (meanRow z))

/-- The row of column variances, in the host's spelling. -/
def varRow (z : FVec Ideal S50000x512 .f32) : FVec Ideal S1x512 .f32 :=
  Host.divf
    (broadcastInDim S1x512 ![1] bcast_S512_S1x512_1
      (Host.reduceAdd (mulf (devs z) (devs z)) (constant (F := Ideal) S_ .f32 0x00000000#32)
        reducesTo_S50000x512_S512_d0 h_S_))
    (broadcastInDim S1x512 ![] bcast_S_S1x512 (constant (F := Ideal) S_ .f32 0x47435000#32))

/-- The row of reciprocal standard deviations, in the host's spelling: the variance clamped at zero, plus ε, under the
    reciprocal root. -/
def invStdRow (z : FVec Ideal S50000x512 .f32) : FVec Ideal S1x512 .f32 :=
  Host.rsqrt
    (addf
      (maximumf (varRow z) (broadcastInDim S1x512 ![] bcast_S_S1x512 (constant (F := Ideal) S_ .f32 0x00000000#32)))
      (broadcastInDim S1x512 ![] bcast_S_S1x512 (constant (F := Ideal) S_ .f32 0x3727C5AC#32)))

theorem meanRow_at (z : FVec Ideal S50000x512 .f32) (g : Fin 512) :
    meanRow z (ix2 (0 : Fin 1) g) = Cert.NormSpec.mean z g := by
  unfold meanRow Cert.NormSpec.mean
  refine (hostDivf_apply _ _ _).trans (congrArg₂ Ideal.div ?_ ?_)
  · refine (Cert.LibHostRows.bcast_b_1b_at _ rfl _ _ (0 : Fin 1) g).trans ?_
    exact Cert.LibHostCols.hostReduceAdd_cols z _ _ (by decide) _ g
  · exact broadcastInDim_scalar_apply _ _ _

theorem devs_at (z : FVec Ideal S50000x512 .f32) (r : Fin 50000) (g : Fin 512) :
    devs z (ix2 r g) = z (ix2 r g) - Cert.NormSpec.mean z g := by
  unfold devs
  refine (subf_apply _ _ _).trans (congrArg (z (ix2 r g) - ·) ?_)
  exact (Cert.LibHostRows.bcast_1b_ab_at _ rfl rfl _ _ r g).trans (meanRow_at z g)

theorem varRow_at (z : FVec Ideal S50000x512 .f32) (g : Fin 512) :
    varRow z (ix2 (0 : Fin 1) g) = Cert.NormSpec.variance z g := by
  unfold varRow Cert.NormSpec.variance
  refine (hostDivf_apply _ _ _).trans (congrArg₂ Ideal.div ?_ ?_)
  · refine (Cert.LibHostRows.bcast_b_1b_at _ rfl _ _ (0 : Fin 1) g).trans ?_
    refine (Cert.LibHostCols.hostReduceAdd_cols _ _ _ (by decide) _ g).trans ?_
    refine congrArg₂ (· + ·) rfl (Finset.sum_congr rfl fun r _ => ?_)
    exact (mulf_apply _ _ _).trans (by rw [devs_at])
  · exact broadcastInDim_scalar_apply _ _ _

theorem invStdRow_at (z : FVec Ideal S50000x512 .f32) (g : Fin 512) :
    invStdRow z (ix2 (0 : Fin 1) g) = Cert.NormSpec.invStd z g := by
  unfold invStdRow Cert.NormSpec.invStd
  refine congrArg Ideal.rsqrt ?_
  refine (addf_apply _ _ _).trans (congrArg₂ (· + ·) ?_ ?_)
  · refine (maximumf_apply _ _ _).trans ?_
    rw [varRow_at]
    exact (congrArg (max (Cert.NormSpec.variance z g)) (broadcastInDim_scalar_apply _ _ _)).trans
      (Cert.NormSpec.clamp_variance z g)
  · exact broadcastInDim_scalar_apply _ _ _

end Cert.KernelIdeal.Stats

end
-- ==== Proof.Boundaries.lean ====
/-
  The kernel program's buffers at the segment boundaries, read back to the arguments.

  The first host stretch computes the neighbour sums (a gather of rows and a scatter-add, the same operations in the
  same order as the reference's), the transposed weights and the three 1 × 512 rows. The first region then leaves the
  layer's output; the second host stretch takes the column statistics of that output; the second region leaves the
  normalized result. Following the contents through the four segments, the result buffer ends at the second region's
  function of: the layer output (the first region's function of the arguments), its row of means, its row of
  reciprocal deviations, and the scale and shift rows.
-/
import proofs.«162154_j10969346474303_2_alg».proof.Proof.Gen.KernelIdeal.Frame
import proofs.«162154_j10969346474303_2_alg».proof.Proof.Gen.ReferenceIdeal.Read
import proofs.«162154_j10969346474303_2_alg».proof.Proof.LayerBlock
import proofs.«162154_j10969346474303_2_alg».proof.Proof.NormBlock
import proofs.«162154_j10969346474303_2_alg».proof.Proof.HostStats

set_option maxRecDepth 16384

noncomputable section

namespace Cert.KernelIdeal.Bound

open Cert.KernelIdeal Cert.KernelIdeal.Gen
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-- The neighbour sums as a term of the node features and the edge list: the gather of source rows scattered with
    addition onto the target rows — stated by the reference's own stage, which is the same composition. -/
abbrev neighbourSums (c : Dev nD) : FVec Ideal S50000x512 .f32 :=
  Cert.ReferenceIdeal.Read.val_main_v13 (F := Ideal) (m ((c : Thread nD τ).loc main_arg0)) (m ((c : Thread nD τ).loc main_arg1))

/-! ## The first region's operands -/

theorem entry_features (c : Dev nD) : V1 m ρ c main_arg0 = m ((c : Thread nD τ).loc main_arg0) := by
  show StableHlo.after hostOps0 (W0 m ρ c) (Proc.devRef .tc main_arg0) = _
  after_results_simp <;> rfl

theorem entry_sums (c : Dev nD) : V1 m ρ c main_v13 = neighbourSums m c := by
  show StableHlo.after hostOps0 (W0 m ρ c) (Proc.devRef .tc main_v13) = _
  after_results_simp
  rfl

theorem entry_weights (c : Dev nD) :
    V1 m ρ c main_v14 = transpose S512x512 [1, 0] (m ((c : Thread nD τ).loc main_arg3)) Facts₀.transposes_S512x512_S512x512_1_0 := by
  show StableHlo.after hostOps0 (W0 m ρ c) (Proc.devRef .tc main_v14) = _
  after_results_simp <;> rfl

theorem entry_bias (c : Dev nD) :
    V1 m ρ c main_v15 = shapeCast S1x512 (m ((c : Thread nD τ).loc main_arg4)) Facts₀.shapeCasts_S512_S1x512 := by
  show StableHlo.after hostOps0 (W0 m ρ c) (Proc.devRef .tc main_v15) = _
  after_results_simp <;> rfl

/-- The layer's output as the first region leaves it. -/
abbrev layerOut (c : Dev nD) : (⟨2, ![50000, 512]⟩ : Shape).Idx → EReal :=
  Layer.layerArr (m ((c : Thread nD τ).loc main_arg0)) (neighbourSums m c)
    (transpose S512x512 [1, 0] (m ((c : Thread nD τ).loc main_arg3)) Facts₀.transposes_S512x512_S512x512_1_0)
    (shapeCast S1x512 (m ((c : Thread nD τ).loc main_arg4)) Facts₀.shapeCasts_S512_S1x512)

/-- After the first region its output array holds the layer's output. -/
theorem after_layer (c : Dev nD) : W2 m ρ c (Proc.devRef .tc main_v18) = layerOut m c := by
  refine (W2_arr m ρ c 4).trans ?_
  rw [Layer.final (V1 m ρ) c, entry_features, entry_sums, entry_weights, entry_bias]

/-! ## The second region's operands -/

theorem entry_layer (c : Dev nD) : V3 m ρ c main_v18 = layerOut m c := by
  show StableHlo.after hostOps1 (W2 m ρ c) (Proc.devRef .tc main_v18) = _
  after_results_simp
  exact after_layer m ρ c

theorem entry_means (c : Dev nD) : V3 m ρ c main_v22 = Stats.meanRow (layerOut m c) := by
  show StableHlo.after hostOps1 (W2 m ρ c) (Proc.devRef .tc main_v22) = _
  after_results_simp
  rw [after_layer]
  rfl

theorem entry_invStd (c : Dev nD) : V3 m ρ c main_v34 = Stats.invStdRow (layerOut m c) := by
  show StableHlo.after hostOps1 (W2 m ρ c) (Proc.devRef .tc main_v34) = _
  after_results_simp
  rw [after_layer]
  rfl

theorem entry_scale (c : Dev nD) :
    V3 m ρ c main_v16 = shapeCast S1x512 (m ((c : Thread nD τ).loc main_arg5)) Facts₀.shapeCasts_S512_S1x512 := by
  show StableHlo.after hostOps1 (W2 m ρ c) (Proc.devRef .tc main_v16) = _
  after_results_simp
  rw [W2_of_ne m ρ c main_v16 (by decide)]
  show StableHlo.after hostOps0 (W0 m ρ c) (Proc.devRef .tc main_v16) = _
  after_results_simp <;> rfl

theorem entry_shift (c : Dev nD) :
    V3 m ρ c main_v17 = shapeCast S1x512 (m ((c : Thread nD τ).loc main_arg6)) Facts₀.shapeCasts_S512_S1x512 := by
  show StableHlo.after hostOps1 (W2 m ρ c) (Proc.devRef .tc main_v17) = _
  after_results_simp
  rw [W2_of_ne m ρ c main_v17 (by decide)]
  show StableHlo.after hostOps0 (W0 m ρ c) (Proc.devRef .tc main_v17) = _
  after_results_simp <;> rfl

/-- The result buffer at the last boundary: the normalizing function of the layer's output, its statistics rows and
    the scale and shift rows. -/
theorem result_at_end (c : Dev nD) :
    W4 m ρ c (Proc.devRef .tc main_v35)
      = Norm.normArr (layerOut m c) (Stats.meanRow (layerOut m c)) (Stats.invStdRow (layerOut m c))
          (shapeCast S1x512 (m ((c : Thread nD τ).loc main_arg5)) Facts₀.shapeCasts_S512_S1x512)
          (shapeCast S1x512 (m ((c : Thread nD τ).loc main_arg6)) Facts₀.shapeCasts_S512_S1x512) := by
  refine (W4_arr m ρ c 5).trans ?_
  rw [Norm.final (V3 m ρ) c, entry_layer, entry_means, entry_invStd, entry_scale, entry_shift]

end Cert.KernelIdeal.Bound

end
-- ==== Proof.Bridge.lean ====
/-
  The two spellings are one function.

  The kernel program hands its first region the weights already transposed and the bias as a 1 × 512 row, and its
  second region four 1 × 512 rows; the specification speaks of the 512 × 512 weights, the length-512 vectors and the
  column statistics directly. A transposed matrix at (k, g) is the matrix at (g, k); a vector reshaped to a row, at
  (0, g), is the vector at g; the host's rows of means and reciprocal deviations at (0, g) are the specification's
  mean and reciprocal deviation of column g (the clamp of the variance at zero being the identity). So the first
  region's array function is the specification's layer, and the second region's array function of that layer and its
  statistics rows is the specification's normalized output.
-/
import proofs.«162154_j10969346474303_2_alg».proof.Proof.LayerBlock
import proofs.«162154_j10969346474303_2_alg».proof.Proof.NormBlock
import proofs.«162154_j10969346474303_2_alg».proof.Proof.HostStats

noncomputable section

open scoped BigOperators

namespace Cert.KernelIdeal.Bridge

open Cert.KernelIdeal Cert.KernelIdeal.Facts₀
open Idealize.ShloMosaic Idealize.ShloMosaic.ValueIdx

/-- The transposed weights at (k, g) are the weights at (g, k). -/
theorem transposed_at (w : FVec Ideal S512x512 .f32) (k g : Fin 512) :
    transpose S512x512 [1, 0] w transposes_S512x512_S512x512_1_0 (ix2 k g) = w (ix2 g k) :=
  transpose_apply [1, 0] w transposes_S512x512_S512x512_1_0 (ix2 k g) (ix2 g k) (fun b => match b with
    | ⟨0, _⟩ => rfl
    | ⟨1, _⟩ => rfl)

/-- A vector reshaped to a 1 × 512 row reads, at (0, g), the vector at g. -/
theorem row_at (v : FVec Ideal S512 .f32) (g : Fin 512) :
    shapeCast S1x512 v shapeCasts_S512_S1x512 (ix2 (0 : Fin 1) g) = v (ix1 g) :=
  shapeCast_apply v shapeCasts_S512_S1x512 (ix2 (0 : Fin 1) g) (ix1 g) (by
    rw [Shape.rowMajor_val_one, Shape.rowMajor_val_two]
    show g.val = 0 * 512 + g.val
    omega)

/-- The first region's function of the transposed weights and the bias row is the specification's layer. -/
theorem layer_eq (x a : FVec Ideal S50000x512 .f32) (w : FVec Ideal S512x512 .f32) (b : FVec Ideal S512 .f32) :
    Layer.layerArr x a (transpose S512x512 [1, 0] w transposes_S512x512_S512x512_1_0)
        (shapeCast S1x512 b shapeCasts_S512_S1x512)
      = Cert.NormSpec.linArr x a w b := by
  funext i
  obtain ⟨r, g, rfl⟩ : ∃ (r : Fin 50000) (g : Fin 512), i = ix2 r g := ⟨i 0, i 1, eq_ix2 i⟩
  show Layer.layerAt x a _ _ r g = Cert.NormSpec.lin x a w b r g
  unfold Layer.layerAt Cert.NormSpec.lin
  refine congrArg₂ (· + ·) (Finset.sum_congr rfl fun k _ => ?_) (row_at b g)
  rw [transposed_at]

/-- The second region's function of a layer output, its rows of statistics and the scale and shift rows is the
    specification's normalized output. -/
theorem norm_eq (z : FVec Ideal S50000x512 .f32) (γ β : FVec Ideal S512 .f32) :
    Norm.normArr z (Stats.meanRow z) (Stats.invStdRow z) (shapeCast S1x512 γ shapeCasts_S512_S1x512)
        (shapeCast S1x512 β shapeCasts_S512_S1x512)
      = Cert.NormSpec.normArr z γ β := by
  funext i
  obtain ⟨r, g, rfl⟩ : ∃ (r : Fin 50000) (g : Fin 512), i = ix2 r g := ⟨i 0, i 1, eq_ix2 i⟩
  show Norm.normAt z _ _ _ _ r g = Cert.NormSpec.norm z γ β r g
  unfold Norm.normAt Cert.NormSpec.norm
  rw [Stats.meanRow_at, Stats.invStdRow_at, row_at, row_at]

end Cert.KernelIdeal.Bridge

end
-- ==== Proof.RefStages.lean ====
/-
  The reference program read at an entry.

  The reference adds the node features to their neighbour sums, multiplies by the transposed weight matrix with one
  host matrix product, adds the bias along the rows, takes each column's mean and biased variance with two host
  sums, and normalizes. Read entry by entry — each host operation through its generated reading lemma — its result
  is the normalized array `normArr` of the layer output `linArr`, with the neighbour sums left as the program's own
  gather-and-scatter term (the other program computes them by the very same operations, so they are never opened).
-/
import proofs.«162154_j10969346474303_2_alg».proof.Proof.Gen.ReferenceIdeal.Read
import proofs.«162154_j10969346474303_2_alg».proof.Proof.NormSpec

noncomputable section

open scoped BigOperators

namespace Cert.RefStages

open Cert.ReferenceIdeal Cert.ReferenceIdeal.Gen Cert.ReferenceIdeal.Read
open Idealize.ShloMosaic Idealize.ShloMosaic.ValueIdx Cert.NormSpec

variable (x0 : (⟨S50000x512, .f32⟩ : BufTy).Contents (Elt Ideal)) (x1 : (⟨S2x160000, .i32⟩ : BufTy).Contents (Elt Ideal))
  (x3 : (⟨S512x512, .f32⟩ : BufTy).Contents (Elt Ideal)) (x4 x5 x6 : (⟨S512, .f32⟩ : BufTy).Contents (Elt Ideal))

/-! ## The index maps of the layout operations, in coordinates -/

theorem lhs_at (r : Fin 50000) (g k : Fin 512) : lidx_main_v16 (ix2 r g) k = ix2 r k :=
  funext fun a => Fin.ext (by match a with | ⟨0, _⟩ => rfl | ⟨1, _⟩ => rfl)

theorem rhs_at (r : Fin 50000) (g k : Fin 512) : idx_main_v15 (ridx_main_v16 (ix2 r g) k) = ix2 g k :=
  funext fun a => Fin.ext (by match a with | ⟨0, _⟩ => rfl | ⟨1, _⟩ => rfl)

theorem bias_at (r : Fin 50000) (g : Fin 512) : idx_main_v17 (idx_main_v18 (ix2 r g)) = ix1 g :=
  funext fun a => Fin.ext (by match a with | ⟨0, _⟩ => rfl)

theorem col_at (g : Fin 512) (k : Fin 50000) : idx_main_v20 (ix1 g) k = ix2 k g :=
  funext fun a => Fin.ext (by match a with | ⟨0, _⟩ => rfl | ⟨1, _⟩ => rfl)

theorem col_at' (g : Fin 512) (k : Fin 50000) : idx_main_v27 (ix1 g) k = ix2 k g :=
  funext fun a => Fin.ext (by match a with | ⟨0, _⟩ => rfl | ⟨1, _⟩ => rfl)

theorem row_of_mean (r : Fin 50000) (g : Fin 512) : idx_main_v23 (idx_main_v24 (ix2 r g)) = ix1 g :=
  funext fun a => Fin.ext (by match a with | ⟨0, _⟩ => rfl)

theorem row_of_mean' (r : Fin 50000) (g : Fin 512) : idx_main_v30 (idx_main_v31 (ix2 r g)) = ix1 g :=
  funext fun a => Fin.ext (by match a with | ⟨0, _⟩ => rfl)

theorem row_of_scale (r : Fin 50000) (g : Fin 512) : idx_main_v33 (idx_main_v34 (ix2 r g)) = ix1 g :=
  funext fun a => Fin.ext (by match a with | ⟨0, _⟩ => rfl)

theorem row_of_inv (r : Fin 50000) (g : Fin 512) : idx_main_v39 (idx_main_v40 (ix2 r g)) = ix1 g :=
  funext fun a => Fin.ext (by match a with | ⟨0, _⟩ => rfl)

theorem row_of_shift (r : Fin 50000) (g : Fin 512) : idx_main_v42 (idx_main_v43 (ix2 r g)) = ix1 g :=
  funext fun a => Fin.ext (by match a with | ⟨0, _⟩ => rfl)

/-! ## The stages -/

/-- The layer's output at (r, g): the host product of `x + neighbour sums` with the transposed weights, plus the bias. -/
theorem layer_at (r : Fin 50000) (g : Fin 512) :
    val_main_v19 (F := Ideal) x0 x1 x3 x4 (ix2 r g) = lin x0 (val_main_v13 (F := Ideal) x0 x1) x3 x4 r g := by
  rw [val_main_v19_apply, val_main_v16_apply, val_main_v18_apply, val_main_v17_apply, bias_at]
  unfold lin
  refine congrArg₂ (· + ·) (Finset.sum_congr rfl fun k _ => ?_) rfl
  rw [val_main_v14_apply, val_main_v15_apply, lhs_at, rhs_at]
  rfl

/-- The layer's output as an array. -/
theorem layer_eq : val_main_v19 (F := Ideal) x0 x1 x3 x4 = linArr x0 (val_main_v13 (F := Ideal) x0 x1) x3 x4 := by
  funext i
  obtain ⟨r, g, rfl⟩ : ∃ (r : Fin 50000) (g : Fin 512), i = ix2 r g := ⟨i 0, i 1, eq_ix2 i⟩
  exact layer_at x0 x1 x3 x4 r g

/-- Column `g`'s mean. -/
theorem mean_at (g : Fin 512) :
    val_main_v22 (F := Ideal) x0 x1 x3 x4 (ix1 g) = mean (val_main_v19 (F := Ideal) x0 x1 x3 x4) g := by
  rw [val_main_v22_apply, val_main_v20_apply, val_main_v21_apply]
  unfold mean
  refine congrArg₂ Ideal.div (congrArg₂ (· + ·) rfl (Finset.sum_congr rfl fun k _ => ?_)) rfl
  rw [col_at]

/-- Column `g`'s biased variance. -/
theorem variance_at (g : Fin 512) :
    val_main_v29 (F := Ideal) x0 x1 x3 x4 (ix1 g) = variance (val_main_v19 (F := Ideal) x0 x1 x3 x4) g := by
  rw [val_main_v29_apply, val_main_v27_apply, val_main_v28_apply]
  unfold variance
  refine congrArg₂ Ideal.div (congrArg₂ (· + ·) rfl (Finset.sum_congr rfl fun k _ => ?_)) rfl
  rw [col_at', val_main_v26_apply, val_main_v25_apply, val_main_v24_apply, val_main_v23_apply, row_of_mean, mean_at]
  rfl

/-- The reference's result at (r, g). -/
theorem result_at (r : Fin 50000) (g : Fin 512) :
    val_main_v44 (F := Ideal) x0 x1 x3 x4 x5 x6 (ix2 r g) = norm (val_main_v19 (F := Ideal) x0 x1 x3 x4) x5 x6 r g := by
  rw [val_main_v44_apply, val_main_v41_apply, val_main_v35_apply, val_main_v34_apply, val_main_v33_apply, row_of_scale,
    val_main_v32_apply, val_main_v31_apply, val_main_v30_apply, row_of_mean', mean_at,
    val_main_v40_apply, val_main_v39_apply, row_of_inv, val_main_v38_apply, val_main_v37_apply, variance_at,
    val_main_v36_apply, val_main_v43_apply, val_main_v42_apply, row_of_shift]
  rfl

/-- The reference's result is the normalized layer output. -/
theorem result_eq :
    val_main_v44 (F := Ideal) x0 x1 x3 x4 x5 x6
      = normArr (linArr x0 (val_main_v13 (F := Ideal) x0 x1) x3 x4) x5 x6 := by
  rw [← layer_eq]
  funext i
  obtain ⟨r, g, rfl⟩ : ∃ (r : Fin 50000) (g : Fin 512), i = ix2 r g := ⟨i 0, i 1, eq_ix2 i⟩
  exact result_at x0 x1 x3 x4 x5 x6 r g

end Cert.RefStages

end
-- ==== Proof.lean ====
/-
  A graph-isomorphism layer with batch normalization: the pipelined kernel program against its plain reference.

  Both programs first form the neighbour sums of the node features by the same gather and scatter-add, so those are
  carried as one unopened term. The kernel program then computes  z = (x + sums) · Wᵀ + b  in a first pipelined
  region over 50 row blocks (the weights transposed beforehand, the bias as a row), takes the column means, the biased
  column variances clamped from below at zero, and the reciprocal roots of variance + ε on the host, and applies
  ((γ · (z − mean)) · reciprocal deviation) + β  in a second pipelined region. The reference does all of it with host
  operations and without the clamp. On the extended reals the two results are one array: a matrix product is the
  same sum over k however it is tiled or spelled, a change of layout reads the same entries, and the clamp is the
  identity because a biased variance — a quotient by 50000 of a sum, from zero, of squares — is never negative.

  The frames of the two kernel programs are the generated ones; the reference's frame is its generated run with the
  result forgotten; the idealization rewrote nothing, so it is preserved trivially. For the value claim the kernel
  program's run is read at its result buffer (KernelRun), that buffer is followed back through the four segments to
  the arguments (Boundaries, over the two regions' array functions LayerBlock and NormBlock and the host statistics
  HostStats), the reference's result is read stage by stage (RefStages), and both are the specification's function
  (NormSpec, Bridge).
-/
import proofs.«162154_j10969346474303_2_alg».proof.Defs
import proofs.«162154_j10969346474303_2_alg».proof.Proof.Gen.Kernel
import proofs.«162154_j10969346474303_2_alg».proof.Proof.Gen.Kernel.Skeleton
import proofs.«162154_j10969346474303_2_alg».proof.Proof.Gen.Kernel.Launch
import proofs.«162154_j10969346474303_2_alg».proof.Proof.Gen.Kernel.Points
import proofs.«162154_j10969346474303_2_alg».proof.Proof.Gen.Kernel.Frame
import proofs.«162154_j10969346474303_2_alg».proof.Proof.Gen.KernelIdeal
import proofs.«162154_j10969346474303_2_alg».proof.Proof.Gen.KernelIdeal.Skeleton
import proofs.«162154_j10969346474303_2_alg».proof.Proof.Gen.KernelIdeal.Launch
import proofs.«162154_j10969346474303_2_alg».proof.Proof.Gen.KernelIdeal.Points
import proofs.«162154_j10969346474303_2_alg».proof.Proof.Gen.KernelIdeal.Frame
import proofs.«162154_j10969346474303_2_alg».proof.Proof.Gen.ReferenceIdeal
import proofs.«162154_j10969346474303_2_alg».proof.Proof.Gen.ReferenceIdeal.Run
import proofs.«162154_j10969346474303_2_alg».proof.Proof.Gen.ReferenceIdeal.Read
import proofs.«162154_j10969346474303_2_alg».proof.Proof.Gen.Pre_finite_inputs
import proofs.«162154_j10969346474303_2_alg».proof.Proof.KernelRun
import proofs.«162154_j10969346474303_2_alg».proof.Proof.Boundaries
import proofs.«162154_j10969346474303_2_alg».proof.Proof.Bridge
import proofs.«162154_j10969346474303_2_alg».proof.Proof.RefStages
import Idealize.ShloMosaic.Adequacy
import Idealize.ShloMosaic.Init

noncomputable section

namespace Cert.Proof

open Idealize.ShloMosaic Idealize.ShloMosaic.TcCoe Idealize.SL.Sem

/-- The kernel program as printed terminates without a fault and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- On the extended reals both programs, run from memories that agree on the arguments, end with the normalized layer
    output of the specification in their result arrays. -/
theorem algebraic : Cert.algebraic_KernelIdeal_ReferenceIdeal := by
  intro m ρ m' ρ' _ hagree
  refine ⟨fun c => Cert.NormSpec.normArr
      (Cert.NormSpec.linArr (m ((c.tc : Thread Cert.KernelIdeal.nD Cert.KernelIdeal.τ).loc Cert.KernelIdeal.main_arg0))
        (Cert.KernelIdeal.Bound.neighbourSums m c)
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · refine (θ_run (Cert.KernelIdeal.defs (F := Ideal)) _ _).mono (fun r h c => ⟨(h c).1.trans ?_, (h c).2⟩)
      (Cert.KernelIdeal.Run.run_result (F := Ideal) m ρ)
    exact (Cert.KernelIdeal.Bound.result_at_end m ρ c).trans
      ((Cert.KernelIdeal.Bridge.norm_eq _ _ _).trans
        (congrArg (fun z => Cert.NormSpec.normArr z _ _) (Cert.KernelIdeal.Bridge.layer_eq _ _ _ _)))
  · refine (θ_run (Cert.ReferenceIdeal.defs (F := Ideal)) _ _).mono (fun r h c => ⟨(h c).1.trans ?_, (h c).2⟩)
      (Cert.ReferenceIdeal.Value.run (F := Ideal) m' ρ')
    obtain ⟨e0, e1, _, e3, e4, e5, e6⟩ := hagree c
    rw [Cert.ReferenceIdeal.Read.val_main_v44_eq, Cert.RefStages.result_eq, e0, e1, e3, e4, e5, e6]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
